-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x4096x1 : Shape := ⟨3, ![8, 4096, 1]⟩
abbrev S8x1x4096 : Shape := ⟨3, ![8, 1, 4096]⟩
abbrev S1x512x3 : Shape := ⟨3, ![1, 512, 3]⟩
abbrev S1x3x4096 : Shape := ⟨3, ![1, 3, 4096]⟩
abbrev S1x512x1 : Shape := ⟨3, ![1, 512, 1]⟩
abbrev S1x1x4096 : Shape := ⟨3, ![1, 1, 4096]⟩
abbrev S1x4096 : Shape := ⟨2, ![1, 4096]⟩
abbrev S512x3 : Shape := ⟨2, ![512, 3]⟩
abbrev S3x4096 : Shape := ⟨2, ![3, 4096]⟩
abbrev S512x1 : Shape := ⟨2, ![512, 1]⟩
abbrev S512x4096 : Shape := ⟨2, ![512, 4096]⟩
abbrev S512 : Shape := ⟨1, ![512]⟩
abbrev S4096 : Shape := ⟨1, ![4096]⟩
abbrev S_ : Shape := ⟨0, ![]⟩

abbrev nBuf : Space → Nat
  | .hbm => 14
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x4096x1, .f32⟩
  | .hbm, ⟨4, _⟩ => ⟨S8x1x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x3x4096, .f32⟩
  | .local _ .vmem, ⟨3, _⟩ => ⟨S1x3x4096, .f32⟩
  | .local _ .vmem, ⟨4, _⟩ => ⟨S1x512x1, .f32⟩
  | .local _ .vmem, ⟨5, _⟩ => ⟨S1x512x1, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_14 : BitVec 32 := 0#32
  let v41 : BitVec 1 := Scalar.cmpi .ne v40 c0_i32_14
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x4096x3_S8x3x4096_0_2_1 : S8x4096x3.Transposes [0, 2, 1] S8x3x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  slices_S512x3_o0_0_S512x1 : S512x3.Slices ![0, 0] S512x1
  slices_S3x4096_o0_0_S1x4096 : S3x4096.Slices ![0, 0] S1x4096
  broadcasts_S512x1_S512x4096 : S512x1.Broadcasts S512x4096
  broadcasts_S1x4096_S512x4096 : S1x4096.Broadcasts S512x4096
  slices_S512x3_o0_1_S512x1 : S512x3.Slices ![0, 1] S512x1
  slices_S3x4096_o1_0_S1x4096 : S3x4096.Slices ![1, 0] S1x4096
  slices_S512x3_o0_2_S512x1 : S512x3.Slices ![0, 2] S512x1
  slices_S3x4096_o2_0_S1x4096 : S3x4096.Slices ![2, 0] S1x4096
  reduces_S512x4096_S512 : S512x4096.Reduces [1] S512
  shapeCasts_S512_S512x1 : S512.ShapeCasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  reduces_S512x4096_S4096 : S512x4096.Reduces [0] S4096
  shapeCasts_S4096_S1x4096 : S4096.ShapeCasts S1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  reducesTo_S8x4096x1_S_d0_1_2 : S8x4096x1.ReducesTo [0, 1, 2] S_
  h_S_ : 0 < S_.numel
  reducesTo_S8x1x4096_S_d0_1_2 : S8x1x4096.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S8x4096x3.size a
  hwx0_0 : ∀ i : grid0.Coords, EltTy.bits .f32 = 32 ∨ (Rect.block (s := S8x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S8x3x4096.size a
  hwx0_1 : ∀ i : grid0.Coords, EltTy.bits .f32 = 32 ∨ (Rect.block (s := S8x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x4096x1.size a
  hwx0_2 : ∀ i : grid0.Coords, EltTy.bits .f32 = 32 ∨ (Rect.block (s := S8x4096x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Spec.lean ====
/-
  The mathematics of the two chamfer programs, with no program in sight.

  For two clouds of points in three coordinates, the table of squared distances can be written entry by entry in two ways:
  as the sum of the three squared coordinate differences, or as |a|² + |b|² − 2·a·b. On real numbers the two are one
  number. Each cloud then keeps, for each of its points, the least entry of its row (or column) of the table. A least
  entry over 4096 rows can be taken all at once, or tile by tile — 512 rows at a time, each tile's least joined to the
  least so far by `min`, starting from +∞ —: the same extended real. Finally the results are summed over all their
  indices; a trailing or middle axis of extent one does not change such a sum.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-! ## The words the programs spell their constants with -/

/-- The word the minima start from is `+∞`. -/
theorem ofBits_inf : Ideal.ofBits .f32 0x7F800000#32 = (⊤ : EReal) := by simp [Ideal.ofBits, Ideal.ieee]

/-- The reference's factor is the real number two. -/
theorem ofBits_two : Ideal.ofBits .f32 0x40000000#32 = ((2 : ℝ) : EReal) := by
  simp [Ideal.ofBits, Ideal.ieee]
  first
    | (rw [← EReal.coe_mul]; norm_num)
    | (norm_cast; norm_num)
    | exact_mod_cast (by norm_num : (8388608 : ℝ) * (1 / 4194304) = 2)

/-! ## The least of finitely many extended reals -/

/-- The least of finitely many extended reals, `+∞` when there are none: `min` folded from `⊤`. -/
def least {ι : Type} [Fintype ι] (g : ι → EReal) : EReal := Finset.univ.fold min ⊤ g

/-- It is the greatest lower bound: the numbers below it are those below every entry. -/
theorem le_least_iff {ι : Type} [Fintype ι] (g : ι → EReal) (c : EReal) : c ≤ least g ↔ ∀ i, c ≤ g i := by
  unfold least
  rw [Finset.le_fold_min]
  simp

/-- The least of the entries whose position is below `k`. -/
def leastBelow {N : ℕ} (k : ℕ) (g : Fin N → EReal) : EReal :=
  (Finset.univ.filter fun n : Fin N => n.val < k).fold min ⊤ g

theorem le_leastBelow_iff {N : ℕ} (k : ℕ) (g : Fin N → EReal) (c : EReal) :
    c ≤ leastBelow k g ↔ ∀ n : Fin N, n.val < k → c ≤ g n := by
  unfold leastBelow
  rw [Finset.le_fold_min]
  simp

/-- Below position zero there is nothing: `+∞`. -/
theorem leastBelow_zero {N : ℕ} (g : Fin N → EReal) : leastBelow 0 g = ⊤ :=
  top_le_iff.mp ((le_leastBelow_iff 0 g ⊤).mpr fun n h => absurd h (Nat.not_lt_zero _))

/-- Below the last position there is everything. -/
theorem leastBelow_all {N : ℕ} (k : ℕ) (h : N ≤ k) (g : Fin N → EReal) : leastBelow k g = least g :=
  eq_of_forall_le_iff fun c => by
    rw [le_leastBelow_iff, le_least_iff]
    exact ⟨fun H n => H n (lt_of_lt_of_le n.isLt h), fun H n _ => H n⟩

/-- ONE TILE MORE: the least below `T·t`, joined to the least of tile `t` (positions `T·t … T·t + T − 1`), is the least
    below `T·(t + 1)`. -/
theorem min_leastBelow_tile {N : ℕ} (T t : ℕ) (hN : T * (t + 1) ≤ N) (g : Fin N → EReal) :
    min (leastBelow (T * t) g) (least fun r : Fin T => g ⟨T * t + r.val, by
      have := r.isLt; rw [Nat.mul_succ] at hN; omega⟩) = leastBelow (T * (t + 1)) g :=
  eq_of_forall_le_iff fun c => by
    rw [le_min_iff, le_leastBelow_iff, le_leastBelow_iff, le_least_iff]
    constructor
    · rintro ⟨H1, H2⟩ n hn
      by_cases hlt : n.val < T * t
      · exact H1 n hlt
      · rw [Nat.mul_succ] at hn
        have hr : n.val - T * t < T := by omega
        have := H2 ⟨n.val - T * t, hr⟩
        have e : (⟨T * t + (⟨n.val - T * t, hr⟩ : Fin T).val, by
            have := n.isLt; show T * t + (n.val - T * t) < N; omega⟩ : Fin N) = n :=
          Fin.ext (by show T * t + (n.val - T * t) = n.val; omega)
        rw [e] at this
        exact this
    · intro H
      refine ⟨fun n hn => H n (by rw [Nat.mul_succ]; omega), fun r => H _ ?_⟩
      show T * t + r.val < T * (t + 1)
      have := r.isLt; rw [Nat.mul_succ]; omega

/-- Joined to `+∞` a number is itself. -/
theorem min_top_left' (x : EReal) : min ⊤ x = x := min_eq_right le_top

/-! ## One entry of the table, both ways -/

/-- The entry as the sum of the squared coordinate differences, in the order the differences are added. -/
def entryDiff (a0 a1 a2 b0 b1 b2 : EReal) : EReal :=
  (a0 - b0) * (a0 - b0) + (a1 - b1) * (a1 - b1) + (a2 - b2) * (a2 - b2)

/-- The entry as the two squared lengths less twice the inner product; `z` is the value the sums start from and
    `two` the factor, as the program spells them. -/
def entryDot (z two a0 a1 a2 b0 b1 b2 : EReal) : EReal :=
  (z + (a0 * a0 + a1 * a1 + a2 * a2)) + (z + (b0 * b0 + b1 * b1 + b2 * b2)) - two * (a0 * b0 + a1 * b1 + a2 * b2)

/-- On real coordinates, with the sums started at zero and the factor two, the two are one number:
    (a − b)² = a² + b² − 2ab, coordinate by coordinate. -/
theorem entryDiff_eq_entryDot (a0 a1 a2 b0 b1 b2 : ℝ) :
    entryDiff a0 a1 a2 b0 b1 b2 = entryDot 0 ((2 : ℝ) : EReal) a0 a1 a2 b0 b1 b2 := by
  unfold entryDiff entryDot
  have h : ((a0 - b0) * (a0 - b0) + (a1 - b1) * (a1 - b1) + (a2 - b2) * (a2 - b2) : ℝ)
      = (0 + (a0 * a0 + a1 * a1 + a2 * a2)) + (0 + (b0 * b0 + b1 * b1 + b2 * b2)) - 2 * (a0 * b0 + a1 * b1 + a2 * b2) := by ring
  exact_mod_cast congrArg (fun r : ℝ => (r : EReal)) h

/-! ## The table and the two results -/

/-- Two clouds per batch: eight batches of 4096 points with three coordinates each. -/
abbrev Clouds : Type := (⟨3, ![8, 4096, 3]⟩ : Shape).Idx → EReal

/-- The squared distance, in batch `b`, from the first cloud's point `n` to the second cloud's point `mm`. -/
def sqDist (x1 x2 : Clouds) (b : Fin 8) (n mm : Fin 4096) : EReal :=
  entryDiff (x1 (ix3 b n (0 : Fin 3))) (x1 (ix3 b n (1 : Fin 3))) (x1 (ix3 b n (2 : Fin 3)))
    (x2 (ix3 b mm (0 : Fin 3))) (x2 (ix3 b mm (1 : Fin 3))) (x2 (ix3 b mm (2 : Fin 3)))

/-- The same entry as the reference arranges it. -/
def sqDistDot (z two : EReal) (x1 x2 : Clouds) (b : Fin 8) (n mm : Fin 4096) : EReal :=
  entryDot z two (x1 (ix3 b n (0 : Fin 3))) (x1 (ix3 b n (1 : Fin 3))) (x1 (ix3 b n (2 : Fin 3)))
    (x2 (ix3 b mm (0 : Fin 3))) (x2 (ix3 b mm (1 : Fin 3))) (x2 (ix3 b mm (2 : Fin 3)))

/-- When every coordinate of both clouds is a real number the two arrangements agree at every entry. -/
theorem sqDist_eq_sqDistDot (x1 x2 : Clouds) (h1 : ∀ i, ∃ r : ℝ, x1 i = (r : EReal)) (h2 : ∀ i, ∃ r : ℝ, x2 i = (r : EReal))
    (b : Fin 8) (n mm : Fin 4096) : sqDist x1 x2 b n mm = sqDistDot 0 ((2 : ℝ) : EReal) x1 x2 b n mm := by
  unfold sqDist sqDistDot
  obtain ⟨a0, e0⟩ := h1 (ix3 b n (0 : Fin 3)); obtain ⟨a1, e1⟩ := h1 (ix3 b n (1 : Fin 3)); obtain ⟨a2, e2⟩ := h1 (ix3 b n (2 : Fin 3))
  obtain ⟨b0, f0⟩ := h2 (ix3 b mm (0 : Fin 3)); obtain ⟨b1, f1⟩ := h2 (ix3 b mm (1 : Fin 3)); obtain ⟨b2, f2⟩ := h2 (ix3 b mm (2 : Fin 3))
  rw [e0, e1, e2, f0, f1, f2]
  exact entryDiff_eq_entryDot a0 a1 a2 b0 b1 b2

/-- For each point of the first cloud, the least squared distance to the second cloud. -/
def nearest1 (x1 x2 : Clouds) (b : Fin 8) (n : Fin 4096) : EReal := least fun mm : Fin 4096 => sqDist x1 x2 b n mm

/-- For each point of the second cloud, the least squared distance to the first cloud. -/
def nearest2 (x1 x2 : Clouds) (b : Fin 8) (mm : Fin 4096) : EReal := least fun n : Fin 4096 => sqDist x1 x2 b n mm

/-- The second cloud's running minimum after the first `k` points of the first cloud. -/
def nearest2Below (k : ℕ) (x1 x2 : Clouds) (b : Fin 8) (mm : Fin 4096) : EReal :=
  leastBelow k fun n : Fin 4096 => sqDist x1 x2 b n mm

/-- Before any point of the first cloud has been seen the running minimum is `+∞`. -/
theorem nearest2Below_zero (x1 x2 : Clouds) (b : Fin 8) (mm : Fin 4096) : nearest2Below (512 * 0) x1 x2 b mm = ⊤ :=
  leastBelow_zero _

/-- One tile of 512 points more: the running minimum, joined to the tile's least. -/
theorem nearest2Below_tile (x1 x2 : Clouds) (b : Fin 8) (mm : Fin 4096) (q : ℕ) (hq : q < 8) :
    min (nearest2Below (512 * q) x1 x2 b mm)
        (least fun r : Fin 512 => sqDist x1 x2 b (⟨512 * q + r.val, by have := r.isLt; omega⟩ : Fin 4096) mm)
      = nearest2Below (512 * (q + 1)) x1 x2 b mm :=
  min_leastBelow_tile 512 q (by omega) fun n : Fin 4096 => sqDist x1 x2 b n mm

/-- After all eight tiles the running minimum is the minimum over the whole first cloud. -/
theorem nearest2Below_all (x1 x2 : Clouds) (b : Fin 8) (mm : Fin 4096) :
    nearest2Below (512 * (7 + 1)) x1 x2 b mm = nearest2 x1 x2 b mm :=
  leastBelow_all _ (by norm_num) _

/-- The first result as the kernel lays it out: one column. -/
def firstResult (x1 x2 : Clouds) : (⟨3, ![8, 4096, 1]⟩ : Shape).Idx → EReal := fun j => nearest1 x1 x2 (j 0) (j 1)

/-- The second result as the kernel lays it out: one row per batch. -/
def secondResult (x1 x2 : Clouds) : (⟨3, ![8, 1, 4096]⟩ : Shape).Idx → EReal := fun j => nearest2 x1 x2 (j 0) (j 2)

/-- The first result read at an index whose batch and point coordinates are known. -/
theorem firstResult_apply (x1 x2 : Clouds) (j : (⟨3, ![8, 4096, 1]⟩ : Shape).Idx) (b : Fin 8) (n : Fin 4096)
    (hb : (j 0).val = b.val) (hn : (j 1).val = n.val) : firstResult x1 x2 j = nearest1 x1 x2 b n :=
  congrArg₂ (nearest1 x1 x2) (Fin.ext hb) (Fin.ext hn)

/-- The second result read at an index whose batch and point coordinates are known. -/
theorem secondResult_apply (x1 x2 : Clouds) (j : (⟨3, ![8, 1, 4096]⟩ : Shape).Idx) (b : Fin 8) (mm : Fin 4096)
    (hb : (j 0).val = b.val) (hm : (j 2).val = mm.val) : secondResult x1 x2 j = nearest2 x1 x2 b mm :=
  congrArg₂ (nearest2 x1 x2) (Fin.ext hb) (Fin.ext hm)

/-! ## A sum over all indices, with or without an axis of extent one -/

/-- The indices of an `[a, b, 1]` array are those of an `[a, b]` array: the last coordinate can only be zero. -/
def dropLastUnit {a b : ℕ} : (⟨3, ![a, b, 1]⟩ : Shape).Idx ≃ (⟨2, ![a, b]⟩ : Shape).Idx where
  toFun j := ix2 (n0 := a) (n1 := b) (j 0) (j 1)
  invFun i := ix3 (n0 := a) (n1 := b) (n2 := 1) (i 0) (i 1) (0 : Fin 1)
  left_inv j := by
    funext d
    match d with
    | ⟨0, _⟩ => rfl
    | ⟨1, _⟩ => rfl
    | ⟨2, _⟩ => exact (Subsingleton.elim (α := Fin 1) _ _)
  right_inv i := by
    funext d
    match d with
    | ⟨0, _⟩ => rfl
    | ⟨1, _⟩ => rfl

/-- The indices of an `[a, 1, b]` array are those of an `[a, b]` array: the middle coordinate can only be zero. -/
def dropMidUnit {a b : ℕ} : (⟨3, ![a, 1, b]⟩ : Shape).Idx ≃ (⟨2, ![a, b]⟩ : Shape).Idx where
  toFun j := ix2 (n0 := a) (n1 := b) (j 0) (j 2)
  invFun i := ix3 (n0 := a) (n1 := 1) (n2 := b) (i 0) (0 : Fin 1) (i 1)
  left_inv j := by
    funext d
    match d with
    | ⟨0, _⟩ => rfl
    | ⟨1, _⟩ => exact (Subsingleton.elim (α := Fin 1) _ _)
    | ⟨2, _⟩ => rfl
  right_inv i := by
    funext d
    match d with
    | ⟨0, _⟩ => rfl
    | ⟨1, _⟩ => rfl

/-- An `[a, b, 1]` array summed over all its indices is the sum over `(i, j)` of its entries at `(i, j, 0)`. -/
theorem sum_idx_ab1 {a b : ℕ} (f : (⟨3, ![a, b, 1]⟩ : Shape).Idx → EReal) :
    ∑ j, f j = ∑ i : (⟨2, ![a, b]⟩ : Shape).Idx, f (ix3 (n0 := a) (n1 := b) (n2 := 1) (i 0) (i 1) (0 : Fin 1)) :=
  (Equiv.sum_comp dropLastUnit.symm f).symm

/-- An `[a, 1, b]` array summed over all its indices is the sum over `(i, j)` of its entries at `(i, 0, j)`. -/
theorem sum_idx_a1b {a b : ℕ} (f : (⟨3, ![a, 1, b]⟩ : Shape).Idx → EReal) :
    ∑ j, f j = ∑ i : (⟨2, ![a, b]⟩ : Shape).Idx, f (ix3 (n0 := a) (n1 := 1) (n2 := b) (i 0) (0 : Fin 1) (i 1)) :=
  (Equiv.sum_comp dropMidUnit.symm f).symm

/-! ## The number both programs end with -/

/-- The two results, each summed from `z` over all its indices and divided by `k`, added. -/
def meanSum (z k : EReal) (f g : (⟨2, ![8, 4096]⟩ : Shape).Idx → EReal) : EReal :=
  Ideal.div (z + ∑ i, f i) k + Ideal.div (z + ∑ i, g i) k

/-- The chamfer distance of the two clouds: the mean over the first cloud of its points' least squared distances to the
    second, plus the mean over the second cloud of its points' least squared distances to the first. -/
def chamfer (z k : EReal) (x1 x2 : Clouds) : EReal :=
  meanSum z k (fun i => nearest1 x1 x2 (i 0) (i 1)) (fun i => nearest2 x1 x2 (i 0) (i 1))

/-- The first result, in the kernel's one-column layout, summed over all its indices. -/
theorem sum_firstResult (x1 x2 : Clouds) :
    ∑ j, firstResult x1 x2 j = ∑ i : (⟨2, ![8, 4096]⟩ : Shape).Idx, nearest1 x1 x2 (i 0) (i 1) :=
  (sum_idx_ab1 (firstResult x1 x2)).trans (Finset.sum_congr rfl fun i _ => firstResult_apply x1 x2 _ (i 0) (i 1) rfl rfl)

/-- The second result, in the kernel's one-row-per-batch layout, summed over all its indices. -/
theorem sum_secondResult (x1 x2 : Clouds) :
    ∑ j, secondResult x1 x2 j = ∑ i : (⟨2, ![8, 4096]⟩ : Shape).Idx, nearest2 x1 x2 (i 0) (i 1) :=
  (sum_idx_a1b (secondResult x1 x2)).trans (Finset.sum_congr rfl fun i _ => secondResult_apply x1 x2 _ (i 0) (i 1) rfl rfl)

end Cert.Chamfer

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.Payload.lean ====
/-
  What the kernel's body computes at one grid point, read entry by entry on the extended reals.

  The body holds one tile of the first cloud, 512 points with their three coordinates, and the whole second cloud of the
  same batch, laid out coordinate by coordinate. It forms the tile's 512 × 4096 table of squared distances — coordinate
  column against coordinate row, difference, square, the three squares added in order —, takes each row's least entry
  (the tile's part of the first result), takes each column's least entry and joins it by `min` to the running column
  minima it was given (the second result so far).
-/
import proofs.«149026_j76811195121928_2_alg».proof.Proof.Gen.KernelIdeal.Skeleton
import proofs.«149026_j76811195121928_2_alg».proof.Proof.Spec
import proofs.«149026_j76811195121928_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.Chamfer
open Idealize.ShloMosaic Idealize.ShloMosaic.ValueIdx

/-- Entry `(r, mm)` of the tile's table: the squared distance from the tile's point `r` to the second cloud's point `mm`. -/
def tileEntry (X0 : Vec Ideal S1x512x3 .f32) (X1 : Vec Ideal S1x3x4096 .f32) (r : Fin 512) (mm : Fin 4096) : EReal :=
  entryDiff (X0 (ix3 (0 : Fin 1) r (0 : Fin 3))) (X0 (ix3 (0 : Fin 1) r (1 : Fin 3))) (X0 (ix3 (0 : Fin 1) r (2 : Fin 3)))
    (X1 (ix3 (0 : Fin 1) (0 : Fin 3) mm)) (X1 (ix3 (0 : Fin 1) (1 : Fin 3) mm)) (X1 (ix3 (0 : Fin 1) (2 : Fin 3) mm))

/-- Coordinate `d` of the tile's points, as a column repeated along the table's rows: entry `(r, mm)` is point `r`'s. -/
theorem column_apply (X0 : Vec Ideal S1x512x3 .f32) (d : Fin 3) (o : Nat) (ho : d.val = o + 0)
    (hc : S1x512x3.ShapeCasts S512x3) (hs : S512x3.Slices ![0, o] S512x1) (hb : S512x1.Broadcasts S512x4096)
    (r : Fin 512) (mm : Fin 4096) :
    broadcastTo S512x4096 (extractStridedSlice S512x1 ![0, o] (shapeCast S512x3 X0 hc) hs) hb (ix2 r mm)
      = X0 (ix3 (0 : Fin 1) r d) :=
  (ColumnLayout.broadcastTo_a1_ab_apply _ hb r mm).trans
    ((slice2_axis1_apply o _ hs r (0 : Fin 1) d ho).trans (shapeCast_1ab_ab_apply X0 hc r d))

/-- Coordinate `d` of the second cloud's points, as a row repeated down the table: entry `(r, mm)` is point `mm`'s. -/
theorem row_apply (X1 : Vec Ideal S1x3x4096 .f32) (d : Fin 3) (o : Nat) (ho : d.val = o + 0)
    (hc : S1x3x4096.ShapeCasts S3x4096) (hs : S3x4096.Slices ![o, 0] S1x4096) (hb : S1x4096.Broadcasts S512x4096)
    (r : Fin 512) (mm : Fin 4096) :
    broadcastTo S512x4096 (extractStridedSlice S1x4096 ![o, 0] (shapeCast S3x4096 X1 hc) hs) hb (ix2 r mm)
      = X1 (ix3 (0 : Fin 1) d mm) :=
  (broadcastTo_1b_ab_apply _ hb r mm).trans
    ((slice2_axis0_apply o _ hs (0 : Fin 1) mm d ho).trans (shapeCast_1ab_ab_apply X1 hc d mm))

/-- The table the body forms, at `(r, mm)`. -/
theorem table_apply (X0 : Vec Ideal S1x512x3 .f32) (X1 : Vec Ideal S1x3x4096 .f32) (r : Fin 512) (mm : Fin 4096) :
    k0_pay3 (F := Ideal) X0 X1 (ix2 r mm) = tileEntry X0 X1 r mm := by
  unfold k0_pay3 tileEntry entryDiff
  simp only [addf_apply, mulf_apply, subf_apply]
  rw [column_apply X0 0 0 rfl, column_apply X0 1 1 rfl, column_apply X0 2 2 rfl,
    row_apply X1 0 0 rfl, row_apply X1 1 1 rfl, row_apply X1 2 2 rfl]

/-- The least entry of each row of a 512 × 4096 table, taken from `+∞`. -/
theorem rowMin_apply (Y : FVec Ideal S512x4096 .f32) (h : S512x4096.Reduces [1] S512) (hφ : FKind.Formats .f32)
    (hacc : (0x7F800000#32 : BitVec (FTy.f32).bits) = FKind.minimumf.neutral .f32 hφ) (r : Fin 512) :
    multiReduction .minimumf [1] S512 Y 0x7F800000#32 h hφ hacc (ix1 r) = least fun mm : Fin 4096 => Y (ix2 r mm) := by
  rw [multiReduction_minimumf_eq_fold, h.fold_filter_drop_single]
  have hf : (Y ∘ h.lift (ix1 r)) = fun mm : Fin 4096 => Y (ix2 r mm) :=
    funext fun k => congrArg Y (by funext c; apply Fin.ext; fin_cases c <;> rfl)
  unfold least
  rw [← ofBits_inf]
  exact congrArg (fun f => Finset.fold min (Ideal.ofBits .f32 0x7F800000#32) f (Finset.univ : Finset (Fin 4096))) hf

/-- The least entry of each column of a 512 × 4096 table, taken from `+∞`. -/
theorem colMin_apply (Y : FVec Ideal S512x4096 .f32) (h : S512x4096.Reduces [0] S4096) (hφ : FKind.Formats .f32)
    (hacc : (0x7F800000#32 : BitVec (FTy.f32).bits) = FKind.minimumf.neutral .f32 hφ) (mm : Fin 4096) :
    multiReduction .minimumf [0] S4096 Y 0x7F800000#32 h hφ hacc (ix1 mm) = least fun r : Fin 512 => Y (ix2 r mm) := by
  rw [multiReduction_minimumf_eq_fold, h.fold_filter_drop_single]
  have hf : (Y ∘ h.lift (ix1 mm)) = fun r : Fin 512 => Y (ix2 r mm) :=
    funext fun k => congrArg Y (by funext c; apply Fin.ext; fin_cases c <;> rfl)
  unfold least
  rw [← ofBits_inf]
  exact congrArg (fun f => Finset.fold min (Ideal.ofBits .f32 0x7F800000#32) f (Finset.univ : Finset (Fin 512))) hf

/-- What the body stores into the first result's block: at row `r`, the least squared distance from the tile's point
    `r` to the second cloud. -/
theorem rowResult_apply (X0 : Vec Ideal S1x512x3 .f32) (X1 : Vec Ideal S1x3x4096 .f32) (u v : Fin 1) (r : Fin 512) :
    k0_pay4 (F := Ideal) X0 X1 (ix3 u r v) = least fun mm : Fin 4096 => tileEntry X0 X1 r mm := by
  unfold k0_pay4
  refine (shapeCast_ab_1ab_apply _ _ u r v).trans ?_
  refine (ColumnLayout.shapeCast_a_a1_apply _ _ r v).trans ?_
  refine (rowMin_apply _ _ _ _ r).trans ?_
  exact congrArg least (funext fun mm => table_apply X0 X1 r mm)

/-- What the body stores into the running column minima: at column `mm`, the minimum given, joined to the least squared
    distance from the tile's points to the second cloud's point `mm`. -/
theorem colResult_apply (X0 : Vec Ideal S1x512x3 .f32) (X1 : Vec Ideal S1x3x4096 .f32) (acc : Vec Ideal S1x4096 .f32)
    (u : Fin 1) (mm : Fin 4096) :
    k0_pay5 (F := Ideal) X0 X1 acc (ix2 u mm) = min (acc (ix2 u mm)) (least fun r : Fin 512 => tileEntry X0 X1 r mm) := by
  unfold k0_pay5
  rw [shapeCast_self]
  refine (minimumf_apply _ _ _).trans ?_
  refine congrArg (min (acc (ix2 u mm))) ?_
  refine (shapeCast_a_1a_apply _ _ u mm).trans ?_
  refine (colMin_apply _ _ _ _ mm).trans ?_
  exact congrArg least (funext fun r => table_apply X0 X1 r mm)

/-- What the body stores into the running column minima at a batch's first tile: `+∞` everywhere. -/
theorem reset_apply (j : S1x4096.Idx) : k0_pay2 (F := Ideal) j = (⊤ : EReal) := by
  unfold k0_pay2
  rw [shapeCast_self]
  exact ofBits_inf

/-- What the body stores into the second result's block at a batch's last tile: the running column minima. -/
theorem flush_apply (acc : Vec Ideal S1x4096 .f32) (u v : Fin 1) (mm : Fin 4096) :
    k0_pay1 (F := Ideal) acc (ix3 u v mm) = acc (ix2 v mm) := by
  unfold k0_pay1
  exact shapeCast_ab_1ab_apply _ _ u v mm

end Cert.KernelIdeal.Payload

end
-- ==== Proof.Blocks.lean ====
/-
  Where each grid point's blocks sit in the arrays.

  Point `t` of the 8 × 8 grid is batch `t / 8`, tile `t % 8`. Its block of the first cloud is rows
  `512·(t % 8) … 512·(t % 8) + 511` of batch `t / 8`; its block of the second cloud is the whole batch, read from the array
  the host transposed beforehand — coordinate-major, so entry `(b, d, mm)` of that array is coordinate `d` of the second
  cloud's point `mm`. Hence the tile's table of squared distances is the matching 512 rows of the batch's table.
-/
import proofs.«149026_j76811195121928_2_alg».proof.Proof.Gen.KernelIdeal.Frame
import proofs.«149026_j76811195121928_2_alg».proof.Proof.Payload
import Idealize.ShloMosaic.Lib.StableHlo.Run
import Idealize.ShloMosaic.Lib.ValueLayout

noncomputable section

namespace Cert.KernelIdeal.Blocks

open Cert.KernelIdeal Cert.KernelIdeal.Gen Cert.KernelIdeal.Payload Cert.Chamfer
open Idealize.ShloMosaic Idealize.ShloMosaic.TcCoe Idealize.SL.Sem Idealize.ShloMosaic.ValueIdx
open Idealize.ShloMosaic.StableHlo

variable (m : (ℓ : Loc nD τ sig) → Buf (Elt Ideal) ℓ)

/-- The printed index maps over the grid: every window's block index is (batch, tile, 0) or (batch, 0, 0). -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

/-- The first cloud as the arguments give it. -/
abbrev cloud1 (c : Dev nD) : Clouds := m ((c : Thread nD τ).loc main_arg0)
/-- The second cloud as the arguments give it. -/
abbrev cloud2 (c : Dev nD) : Clouds := m ((c : Thread nD τ).loc main_arg1)

/-- The array the second window reads is the second cloud with its last two axes exchanged. -/
theorem transposed_eq (c : Dev nD) :
    (V m c main_v0 : S8x3x4096.Idx → EReal)
      = transpose S8x3x4096 [0, 2, 1] (m ((c : Thread nD τ).loc main_arg1)) Facts₀.transposes_S8x4096x3_S8x3x4096_0_2_1 := by
  show StableHlo.after hostOps0 (fun b => m (c, b)) (Proc.devRef .tc main_v0) = _
  after_results

/-- Entry `(0, r, d)` of point `t`'s block of the first cloud. -/
theorem tile_read (c : Dev nD) (t : Fin cfg0.N) (b : Fin 8) (q : ℕ) (hq : q < 8) (ht : t.val = 8 * b.val + q)
    (r : Fin 512) (d : Fin 3) :
    iblk m c 0 t (ix3 (0 : Fin 1) r d) = cloud1 m c (ix3 b (⟨512 * q + r.val, by have := r.isLt; omega⟩ : Fin 4096) d) := by
  unfold iblk
  show V m c main_arg0 (((cfg0.win 0).blk t).view.emb (ix3 (0 : Fin 1) r d)) = _
  rw [V_main_arg0]
  obtain ⟨e0, e1, e2, -⟩ := idx_facts t
  refine congrArg (m ((c : Thread nD τ).loc main_arg0)) (funext fun a => Fin.ext ?_)
  match a with
  | ⟨0, _⟩ => show win0_0.index t (0 : Fin 3) * 1 + 1 * 0 = b.val; rw [e0]; omega
  | ⟨1, _⟩ => show win0_0.index t (1 : Fin 3) * 512 + 1 * r.val = 512 * q + r.val; rw [e1]; omega
  | ⟨2, _⟩ => show win0_0.index t (2 : Fin 3) * 3 + 1 * d.val = d.val; rw [e2]; omega

/-- Entry `(0, d, mm)` of point `t`'s block of the transposed second cloud. -/
theorem batch_read (c : Dev nD) (t : Fin cfg0.N) (b : Fin 8) (q : ℕ) (hq : q < 8) (ht : t.val = 8 * b.val + q)
    (d : Fin 3) (mm : Fin 4096) :
    iblk m c 1 t (ix3 (0 : Fin 1) d mm) = cloud2 m c (ix3 b mm d) := by
  unfold iblk
  show V m c main_v0 (((cfg0.win 1).blk t).view.emb (ix3 (0 : Fin 1) d mm)) = _
  rw [transposed_eq]
  obtain ⟨-, -, -, e0, e1, e2, -⟩ := idx_facts t
  refine Eq.trans (congrArg _ (funext fun a => Fin.ext ?_)) (transpose_ix3_021_apply (m ((c : Thread nD τ).loc main_arg1)) _ b d mm)
  match a with
  | ⟨0, _⟩ => show win0_1.index t (0 : Fin 3) * 1 + 1 * 0 = b.val; rw [e0]; omega
  | ⟨1, _⟩ => show win0_1.index t (1 : Fin 3) * 3 + 1 * d.val = d.val; rw [e1]; omega
  | ⟨2, _⟩ => show win0_1.index t (2 : Fin 3) * 4096 + 1 * mm.val = mm.val; rw [e2]; omega

/-- So the table point `t` forms is rows `512·q …` of batch `b`'s table. -/
theorem tileEntry_eq (c : Dev nD) (t : Fin cfg0.N) (b : Fin 8) (q : ℕ) (hq : q < 8) (ht : t.val = 8 * b.val + q)
    (r : Fin 512) (mm : Fin 4096) :
    tileEntry (iblk m c 0 t) (iblk m c 1 t) r mm
      = sqDist (cloud1 m c) (cloud2 m c) b (⟨512 * q + r.val, by have := r.isLt; omega⟩ : Fin 4096) mm := by
  unfold tileEntry sqDist
  rw [tile_read m c t b q hq ht r 0, tile_read m c t b q hq ht r 1, tile_read m c t b q hq ht r 2,
    batch_read m c t b q hq ht 0 mm, batch_read m c t b q hq ht 1 mm, batch_read m c t b q hq ht 2 mm]

end Cert.KernelIdeal.Blocks

end
-- ==== Proof.Pieces.lean ====
/-
  What one run of the body leaves behind, in each of its three situations, as values.

  At a batch's first tile the running column minima are reset to `+∞` and then joined to the tile's column minima; at a
  middle tile they are whatever the tile before left, joined to this tile's; at the last tile the same, and the joined
  minima are then copied out as the batch's second result. In every situation the tile's row minima are stored as the
  tile's part of the first result. The run records each buffer's final contents as a list of stores; every buffer here
  is overwritten whole, so the last store's value is what it holds.
-/
import proofs.«149026_j76811195121928_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A batch's first tile -/

/-- The first result's block: the tile's row minima. -/
theorem first_rows (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i)
    (x0 : Vec F S1x512x3 .f32) (x1 : Vec F S1x3x4096 .f32) :
    out0_A_2 c i arg2 harg2 arg3 harg3 arg4 harg4 arg5 harg5 arg6 harg6 hc0 hc1 x0 x1 = k0_pay4 x0 x1 := by
  unfold out0_A_2
  rw [View.read_writes_eq_canon _ _ _ (cover0_A_2 c i arg2 harg2 arg3 harg3 arg4 harg4 arg5 harg5 arg6 harg6 hc0 hc1 x0 x1)]
  unfold kernelRun0_A
  dsimp only
  sl_unfold_words
  rw [View.canon_unit_zero hz3]
  simp only [View.readAt_eq_ld, harg2.read_unread, harg3.read_unread, harg6.read_unread,
    View.ld_unit_zero (S := S1x512x3) hz3, View.ld_unit_zero (S := S1x3x4096) hz3, View.ld_unit_zero (S := S1x4096) hz2]

/-- The running column minima: `+∞` joined to the tile's column minima. -/
theorem first_cols (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i)
    (x0 : Vec F S1x512x3 .f32) (x1 : Vec F S1x3x4096 .f32) :
    sout0_A_0 c i arg2 harg2 arg3 harg3 arg4 harg4 arg5 harg5 arg6 harg6 hc0 hc1 x0 x1 = k0_pay5 x0 x1 k0_pay2 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x4096) hz2, View.readCov_unit_zero (S := S1x4096) _ hz2]
  simp only [View.readAt_eq_ld, harg2.read_unread, harg3.read_unread, harg6.read_unread,
    View.ld_unit_zero (S := S1x512x3) hz3, View.ld_unit_zero (S := S1x3x4096) hz3, View.ld_unit_zero (S := S1x4096) hz2]

/-! ## A middle tile -/

theorem middle_rows (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : ¬cond0_1 i)
    (x0 : Vec F S1x512x3 .f32) (x1 : Vec F S1x3x4096 .f32) (xs0 : Vec F S1x4096 .f32) :
    out0_B_2 c i arg2 harg2 arg3 harg3 arg4 harg4 arg5 harg5 arg6 harg6 hc0 hc1 x0 x1 xs0 = k0_pay4 x0 x1 := by
  unfold out0_B_2
  rw [View.read_writes_eq_canon _ _ _ (cover0_B_2 c i arg2 harg2 arg3 harg3 arg4 harg4 arg5 harg5 arg6 harg6 hc0 hc1 x0 x1 xs0)]
  unfold kernelRun0_B
  dsimp only
  sl_unfold_words
  rw [View.canon_unit_zero hz3]
  simp only [View.readAt_eq_ld, harg2.read_unread, harg3.read_unread, harg6.read_unread,
    View.ld_unit_zero (S := S1x512x3) hz3, View.ld_unit_zero (S := S1x3x4096) hz3, View.ld_unit_zero (S := S1x4096) hz2]

/-- The running column minima: those the tile before left, joined to this tile's. -/
theorem middle_cols (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : ¬cond0_1 i)
    (x0 : Vec F S1x512x3 .f32) (x1 : Vec F S1x3x4096 .f32) (xs0 : Vec F S1x4096 .f32) :
    sout0_B_0 c i arg2 harg2 arg3 harg3 arg4 harg4 arg5 harg5 arg6 harg6 hc0 hc1 x0 x1 xs0 = k0_pay5 x0 x1 xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, harg3.read_unread, harg6.read_unread,
    View.ld_unit_zero (S := S1x512x3) hz3, View.ld_unit_zero (S := S1x3x4096) hz3, View.ld_unit_zero (S := S1x4096) hz2]

/-! ## A batch's last tile -/

theorem last_rows (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i)
    (x0 : Vec F S1x512x3 .f32) (x1 : Vec F S1x3x4096 .f32) (xs0 : Vec F S1x4096 .f32) :
    out0_C_2 c i arg2 harg2 arg3 harg3 arg4 harg4 arg5 harg5 arg6 harg6 hc0 hc1 x0 x1 xs0 = k0_pay4 x0 x1 := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero hz3]
  simp only [View.readAt_eq_ld, harg2.read_unread, harg3.read_unread, harg6.read_unread,
    View.ld_unit_zero (S := S1x512x3) hz3, View.ld_unit_zero (S := S1x3x4096) hz3, View.ld_unit_zero (S := S1x4096) hz2]

theorem last_cols (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i)
    (x0 : Vec F S1x512x3 .f32) (x1 : Vec F S1x3x4096 .f32) (xs0 : Vec F S1x4096 .f32) :
    sout0_C_0 c i arg2 harg2 arg3 harg3 arg4 harg4 arg5 harg5 arg6 harg6 hc0 hc1 x0 x1 xs0 = k0_pay5 x0 x1 xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread,
    View.ld_unit_zero (S := S1x512x3) hz3, View.ld_unit_zero (S := S1x3x4096) hz3, View.ld_unit_zero (S := S1x4096) hz2]

/-- The second result's block: the joined column minima, copied out. -/
theorem last_out (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i)
    (x0 : Vec F S1x512x3 .f32) (x1 : Vec F S1x3x4096 .f32) (xs0 : Vec F S1x4096 .f32) :
    out0_C_3 c i arg2 harg2 arg3 harg3 arg4 harg4 arg5 harg5 arg6 harg6 hc0 hc1 x0 x1 xs0 = k0_pay1 (k0_pay5 x0 x1 xs0) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero hz3, View.readCov_unit_zero (S := S1x4096) _ hz2]
  simp only [View.readAt_eq_ld, harg2.read_unread, harg3.read_unread, harg6.read_unread,
    View.ld_unit_zero (S := S1x512x3) hz3, View.ld_unit_zero (S := S1x3x4096) hz3, View.ld_unit_zero (S := S1x4096) hz2]

end Cert.KernelIdeal.Pieces

end
-- ==== Proof.Running.lean ====
/-
  What the buffers hold after each grid point, in closed form.

  Point `t = 8·b + q` handles tile `q` of batch `b`. After it, the running column minima are the least squared distances
  from the first `512·(q + 1)` points of batch `b`'s first cloud to each point of its second cloud (by induction along the
  batch: `+∞` joined to tile 0's least, then each tile's least joined on); the first result's block holds, for each of
  the tile's 512 points, its least squared distance to the second cloud; and at the batch's last tile the second result's
  block holds the finished column minima.
-/
import proofs.«149026_j76811195121928_2_alg».proof.Proof.Blocks
import proofs.«149026_j76811195121928_2_alg».proof.Proof.Pieces

noncomputable section

namespace Cert.KernelIdeal.Running

open Cert.KernelIdeal Cert.KernelIdeal.Gen Cert.KernelIdeal.Payload Cert.KernelIdeal.Pieces Cert.KernelIdeal.Blocks Cert.Chamfer
open Idealize.ShloMosaic Idealize.ShloMosaic.TcCoe Idealize.SL.Sem Idealize.ShloMosaic.ValueIdx

variable (m : (ℓ : Loc nD τ sig) → Buf (Elt Ideal) ℓ)

/-- The tile's column minima are the least over the tile's 512 rows of the batch's table. -/
theorem tile_cols (c : Dev nD) (t : Fin cfg0.N) (b : Fin 8) (q : ℕ) (hq : q < 8) (ht : t.val = 8 * b.val + q) (mm : Fin 4096) :
    (least fun r : Fin 512 => tileEntry (iblk m c 0 t) (iblk m c 1 t) r mm)
      = least fun r : Fin 512 => sqDist (cloud1 m c) (cloud2 m c) b (⟨512 * q + r.val, by have := r.isLt; omega⟩ : Fin 4096) mm :=
  congrArg least (funext fun r => tileEntry_eq m c t b q hq ht r mm)

/-- The running column minima after a batch's first tile. -/
theorem cols_first (c : Dev nD) (t : Fin cfg0.N) (h0 : t.val % 8 = 0) (b : Fin 8) (ht : t.val = 8 * b.val + 0)
    (u : Fin 1) (mm : Fin 4096) :
    (outsAt0 m c t.val t.isLt).2.2 (ix2 u mm) = nearest2Below (512 * (0 + 1)) (cloud1 m c) (cloud2 m c) b mm := by
  have h1 : ¬t.val % 8 = 7 := by omega
  rw [outsAt0_A m c t h0 h1]
  dsimp only
  refine (congrFun (first_cols c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)) (ix2 u mm)).trans ?_
  refine (colResult_apply (iblk m c 0 t) (iblk m c 1 t) (k0_pay2 (F := Ideal)) u mm).trans ?_
  rw [reset_apply, tile_cols m c t b 0 (by omega) ht mm, ← nearest2Below_zero (cloud1 m c) (cloud2 m c) b mm]
  exact nearest2Below_tile (cloud1 m c) (cloud2 m c) b mm 0 (by omega)

/-- The running column minima after a later tile, from those after the tile before. -/
theorem cols_later (c : Dev nD) (t : Fin cfg0.N) (h0 : ¬t.val % 8 = 0) (b : Fin 8) (q : ℕ) (hq : q < 8) (ht : t.val = 8 * b.val + q)
    (prev : ∀ (u : Fin 1) (mm : Fin 4096), (outsAt0 m c (t.val - 1) (Nat.lt_of_le_of_lt (Nat.sub_le _ _) t.isLt)).2.2 (ix2 u mm)
      = nearest2Below (512 * q) (cloud1 m c) (cloud2 m c) b mm)
    (u : Fin 1) (mm : Fin 4096) :
    (outsAt0 m c t.val t.isLt).2.2 (ix2 u mm) = nearest2Below (512 * (q + 1)) (cloud1 m c) (cloud2 m c) b mm := by
  by_cases h1 : t.val % 8 = 7
  · rw [outsAt0_C m c t h0 h1]
    dsimp only
    refine (congrFun (last_cols c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) _) (ix2 u mm)).trans ?_
    refine (colResult_apply (iblk m c 0 t) (iblk m c 1 t) _ u mm).trans ?_
    rw [prev u mm, tile_cols m c t b q hq ht mm]
    exact nearest2Below_tile (cloud1 m c) (cloud2 m c) b mm q hq
  · rw [outsAt0_B m c t h0 h1]
    dsimp only
    refine (congrFun (middle_cols c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) _) (ix2 u mm)).trans ?_
    refine (colResult_apply (iblk m c 0 t) (iblk m c 1 t) _ u mm).trans ?_
    rw [prev u mm, tile_cols m c t b q hq ht mm]
    exact nearest2Below_tile (cloud1 m c) (cloud2 m c) b mm q hq

/-- THE RUNNING MINIMA after point `8·b + q`: over the first `512·(q + 1)` points of batch `b`. By induction on the point. -/
theorem cols_after (c : Dev nD) : ∀ (n : ℕ) (hn : n < cfg0.N) (b : Fin 8) (q : ℕ), q < 8 → n = 8 * b.val + q →
    ∀ (u : Fin 1) (mm : Fin 4096),
      (outsAt0 m c n hn).2.2 (ix2 u mm) = nearest2Below (512 * (q + 1)) (cloud1 m c) (cloud2 m c) b mm
  | 0, hn, b, q, hq, hnq, u, mm => by
    obtain rfl : q = 0 := by omega
    exact cols_first m c ⟨0, hn⟩ rfl b hnq u mm
  | n + 1, hn, b, q, hq, hnq, u, mm => by
    by_cases h0 : (n + 1) % 8 = 0
    · obtain rfl : q = 0 := by omega
      exact cols_first m c ⟨n + 1, hn⟩ h0 b hnq u mm
    · have hq0 : q ≠ 0 := by omega
      have IH := cols_after c n (Nat.lt_of_succ_lt hn) b (q - 1) (by omega) (by omega)
      have e : 512 * (q - 1 + 1) = 512 * q := by congr 1; omega
      rw [e] at IH
      exact cols_later m c ⟨n + 1, hn⟩ h0 b q hq hnq IH u mm

/-- The first result's block after point `8·b + q`: the tile's points' least squared distances to the second cloud. -/
theorem rows_after (c : Dev nD) (t : Fin cfg0.N) (b : Fin 8) (q : ℕ) (hq : q < 8) (ht : t.val = 8 * b.val + q)
    (u v : Fin 1) (r : Fin 512) :
    (outsAt0 m c t.val t.isLt).1 (ix3 u r v)
      = nearest1 (cloud1 m c) (cloud2 m c) b (⟨512 * q + r.val, by have := r.isLt; omega⟩ : Fin 4096) := by
  have fin : (least fun mm : Fin 4096 => tileEntry (iblk m c 0 t) (iblk m c 1 t) r mm)
      = nearest1 (cloud1 m c) (cloud2 m c) b (⟨512 * q + r.val, by have := r.isLt; omega⟩ : Fin 4096) :=
    congrArg least (funext fun mm => tileEntry_eq m c t b q hq ht r mm)
  by_cases h0 : t.val % 8 = 0
  · have h1 : ¬t.val % 8 = 7 := by omega
    rw [outsAt0_A m c t h0 h1]
    dsimp only
    refine (congrFun (first_rows c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)) (ix3 u r v)).trans ?_
    exact (rowResult_apply (iblk m c 0 t) (iblk m c 1 t) u v r).trans fin
  · by_cases h1 : t.val % 8 = 7
    · rw [outsAt0_C m c t h0 h1]
      dsimp only
      refine (congrFun (last_rows c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) _) (ix3 u r v)).trans ?_
      exact (rowResult_apply (iblk m c 0 t) (iblk m c 1 t) u v r).trans fin
    · rw [outsAt0_B m c t h0 h1]
      dsimp only
      refine (congrFun (middle_rows c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) _) (ix3 u r v)).trans ?_
      exact (rowResult_apply (iblk m c 0 t) (iblk m c 1 t) u v r).trans fin

/-- The second result's block after a batch's last tile: the finished column minima. -/
theorem out_after (c : Dev nD) (t : Fin cfg0.N) (h1 : t.val % 8 = 7) (b : Fin 8) (ht : t.val = 8 * b.val + 7)
    (u v : Fin 1) (mm : Fin 4096) :
    (outsAt0 m c t.val t.isLt).2.1 (ix3 u v mm) = nearest2 (cloud1 m c) (cloud2 m c) b mm := by
  have h0 : ¬t.val % 8 = 0 := by omega
  have hs := cols_after m c t.val t.isLt b 7 (by omega) ht v mm
  rw [outsAt0_C m c t h0 h1] at hs ⊢
  dsimp only at hs ⊢
  refine (congrFun (last_out c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) _) (ix3 u v mm)).trans ?_
  refine (flush_apply _ u v mm).trans ?_
  refine ((congrFun (last_cols c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) _) (ix2 v mm)).symm.trans hs).trans ?_
  exact nearest2Below_all (cloud1 m c) (cloud2 m c) b mm

end Cert.KernelIdeal.Running

end
-- ==== Proof.Arrays.lean ====
/-
  The two result arrays after the whole grid has run.

  Every point writes its block of the first result back: point `8·b + q` writes rows `512·q … 512·q + 511` of batch `b`,
  and these blocks tile the array, so the array ends holding, for every point of the first cloud, its least squared
  distance to the second cloud. The second result's block is written back only by a batch's last point, `8·b + 7`; its
  block is the whole of batch `b`'s row, and the eight rows tile the array, which ends holding the least squared distances
  from the second cloud's points to the first cloud.
-/
import proofs.«149026_j76811195121928_2_alg».proof.Proof.Running
import Idealize.ShloMosaic.Lib.Pipeline.Value

noncomputable section

namespace Cert.KernelIdeal.Arrays

open Cert.KernelIdeal Cert.KernelIdeal.Gen Cert.KernelIdeal.Blocks Cert.KernelIdeal.Running Cert.Chamfer
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The first result -/

/-- What point `t` writes back is block `t` of the first result. -/
theorem flushed_first (c : Dev nD) (t : Fin cfg0.N) :
    (dats m 0 c).flushed 2 t = ((cfg0.win 2).blk t).view.read (Elt Ideal) (firstResult (cloud1 m c) (cloud2 m c)) := by
  show (cfg0.win 2).cut (grid0.coords t) ((dats m 0 c).after 2 t) = _
  rw [after0_2]
  have hN : t.val < 64 := lt_of_lt_of_eq t.isLt (show cfg0.N = 64 from N_0)
  obtain ⟨-, -, -, -, -, -, e0, e1, e2, -⟩ := idx_facts t
  funext y
  obtain ⟨u, r, v, rfl⟩ : ∃ (u : Fin 1) (r : Fin 512) (v : Fin 1), y = ix3 u r v := ⟨y 0, y 1, y 2, eq_ix3 y⟩
  show (outsAt0 m c t.val t.isLt).1 (ix3 u r v)
    = firstResult (cloud1 m c) (cloud2 m c) (((cfg0.win 2).blk t).view.emb (ix3 u r v))
  refine (rows_after m c t ⟨t.val / 8, by omega⟩ (t.val % 8) (by omega) (by show t.val = 8 * (t.val / 8) + t.val % 8; omega) u v r).trans
    (firstResult_apply _ _ _ _ _ ?_ ?_).symm
  · show win0_2.index t (0 : Fin 3) * 1 + 1 * u.val = t.val / 8
    rw [e0]; have := u.isLt; omega
  · show win0_2.index t (1 : Fin 3) * 512 + 1 * r.val = 512 * (t.val % 8) + r.val
    rw [e1]; omega

/-- An index of the first result is in point `t`'s block iff each coordinate is in the block's range on its axis. -/
theorem mem_blk_first (t : Fin cfg0.N) (i : S8x4096x1.Idx) :
    i ∈ ((cfg0.win 2).blk t).view.set ↔ ∀ a : Fin 3, win0_2.index t a * S1x512x1.size a ≤ (i a).val
      ∧ (i a).val < win0_2.index t a * S1x512x1.size a + S1x512x1.size a := by
  show i ∈ ((View.whole main_v1_0).slice (win0_2.rect t)).set ↔ _
  rw [View.set_slice_whole, Rect.mem_set_unit]
  exact Iff.rfl

/-- Every index of the first result lies in the block of the point of its batch and tile. -/
theorem cover_first (i : S8x4096x1.Idx) :
    ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 1 := (i 2).isLt
  have hlt : 8 * (i 0).val + (i 1).val / 512 < cfg0.N := lt_of_lt_of_eq (by omega) (show (64 : ℕ) = cfg0.N from N_0.symm)
  refine ⟨⟨8 * (i 0).val + (i 1).val / 512, hlt⟩, flush0_2 _, ?_⟩
  rw [mem_blk_first]
  obtain ⟨-, -, -, -, -, -, e0, e1, e2, -⟩ := idx_facts ⟨8 * (i 0).val + (i 1).val / 512, hlt⟩
  intro a
  match a with
  | ⟨0, _⟩ =>
    show win0_2.index ⟨8 * (i 0).val + (i 1).val / 512, hlt⟩ (0 : Fin 3) * 1 ≤ (i 0).val
      ∧ (i 0).val < win0_2.index ⟨8 * (i 0).val + (i 1).val / 512, hlt⟩ (0 : Fin 3) * 1 + 1
    rw [e0]; show (8 * (i 0).val + (i 1).val / 512) / 8 * 1 ≤ (i 0).val ∧ (i 0).val < (8 * (i 0).val + (i 1).val / 512) / 8 * 1 + 1
    omega
  | ⟨1, _⟩ =>
    show win0_2.index ⟨8 * (i 0).val + (i 1).val / 512, hlt⟩ (1 : Fin 3) * 512 ≤ (i 1).val
      ∧ (i 1).val < win0_2.index ⟨8 * (i 0).val + (i 1).val / 512, hlt⟩ (1 : Fin 3) * 512 + 512
    rw [e1]; show (8 * (i 0).val + (i 1).val / 512) % 8 * 512 ≤ (i 1).val ∧ (i 1).val < (8 * (i 0).val + (i 1).val / 512) % 8 * 512 + 512
    omega
  | ⟨2, _⟩ =>
    show win0_2.index ⟨8 * (i 0).val + (i 1).val / 512, hlt⟩ (2 : Fin 3) * 1 ≤ (i 2).val
      ∧ (i 2).val < win0_2.index ⟨8 * (i 0).val + (i 1).val / 512, hlt⟩ (2 : Fin 3) * 1 + 1
    rw [e2]; omega

/-- The first result array after the run. -/
theorem final_first (c : Dev nD) : (dats m 0 c).arrAt 2 cfg0.N = firstResult (cloud1 m c) (cloud2 m c) :=
  (dats m 0 c).arrAt_eq_of_cover 2 (firstResult (cloud1 m c) (cloud2 m c)) (fun t _ => flushed_first m c t) cover_first

/-! ## The second result -/

/-- What a batch's last point writes back is that batch's row of the second result. -/
theorem flushed_second (c : Dev nD) (t : Fin cfg0.N) (hf : (cfg0.win 3).flush t = true) :
    (dats m 0 c).flushed 3 t = ((cfg0.win 3).blk t).view.read (Elt Ideal) (secondResult (cloud1 m c) (cloud2 m c)) := by
  have h7 : t.val % 8 = 7 := (flush0_3 t).mp hf
  show (cfg0.win 3).cut (grid0.coords t) ((dats m 0 c).after 3 t) = _
  rw [after0_3]
  have hN : t.val < 64 := lt_of_lt_of_eq t.isLt (show cfg0.N = 64 from N_0)
  obtain ⟨-, -, -, -, -, -, -, -, -, e0, e1, e2⟩ := idx_facts t
  funext y
  obtain ⟨u, v, mm, rfl⟩ : ∃ (u v : Fin 1) (mm : Fin 4096), y = ix3 u v mm := ⟨y 0, y 1, y 2, eq_ix3 y⟩
  show (outsAt0 m c t.val t.isLt).2.1 (ix3 u v mm)
    = secondResult (cloud1 m c) (cloud2 m c) (((cfg0.win 3).blk t).view.emb (ix3 u v mm))
  refine (out_after m c t h7 ⟨t.val / 8, by omega⟩ (by show t.val = 8 * (t.val / 8) + 7; omega) u v mm).trans
    (secondResult_apply _ _ _ _ _ ?_ ?_).symm
  · show win0_3.index t (0 : Fin 3) * 1 + 1 * u.val = t.val / 8
    rw [e0]; have := u.isLt; omega
  · show win0_3.index t (2 : Fin 3) * 4096 + 1 * mm.val = mm.val
    rw [e2]; omega

theorem mem_blk_second (t : Fin cfg0.N) (i : S8x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_v1_1).slice (win0_3.rect t)).set ↔ _
  rw [View.set_slice_whole, Rect.mem_set_unit]
  exact Iff.rfl

/-- Every index of the second result lies in the block its batch's last point writes back. -/
theorem cover_second (i : S8x1x4096.Idx) :
    ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 4096 := (i 2).isLt
  have hlt : 8 * (i 0).val + 7 < cfg0.N := lt_of_lt_of_eq (by omega) (show (64 : ℕ) = cfg0.N from N_0.symm)
  refine ⟨⟨8 * (i 0).val + 7, hlt⟩, (flush0_3 _).mpr (by show (8 * (i 0).val + 7) % 8 = 7; omega), ?_⟩
  rw [mem_blk_second]
  obtain ⟨-, -, -, -, -, -, -, -, -, e0, e1, e2⟩ := idx_facts ⟨8 * (i 0).val + 7, hlt⟩
  intro a
  match a with
  | ⟨0, _⟩ =>
    show win0_3.index ⟨8 * (i 0).val + 7, hlt⟩ (0 : Fin 3) * 1 ≤ (i 0).val
      ∧ (i 0).val < win0_3.index ⟨8 * (i 0).val + 7, hlt⟩ (0 : Fin 3) * 1 + 1
    rw [e0]; show (8 * (i 0).val + 7) / 8 * 1 ≤ (i 0).val ∧ (i 0).val < (8 * (i 0).val + 7) / 8 * 1 + 1
    omega
  | ⟨1, _⟩ =>
    show win0_3.index ⟨8 * (i 0).val + 7, hlt⟩ (1 : Fin 3) * 1 ≤ (i 1).val
      ∧ (i 1).val < win0_3.index ⟨8 * (i 0).val + 7, hlt⟩ (1 : Fin 3) * 1 + 1
    rw [e1]; omega
  | ⟨2, _⟩ =>
    show win0_3.index ⟨8 * (i 0).val + 7, hlt⟩ (2 : Fin 3) * 4096 ≤ (i 2).val
      ∧ (i 2).val < win0_3.index ⟨8 * (i 0).val + 7, hlt⟩ (2 : Fin 3) * 4096 + 4096
    rw [e2]; omega

/-- The second result array after the run. -/
theorem final_second (c : Dev nD) : (dats m 0 c).arrAt 3 cfg0.N = secondResult (cloud1 m c) (cloud2 m c) :=
  (dats m 0 c).arrAt_eq_of_cover 3 (secondResult (cloud1 m c) (cloud2 m c)) (flushed_second m c) cover_second

end Cert.KernelIdeal.Arrays

end
-- ==== Proof.Result.lean ====
/-
  The kernel's program, run: its one result is the chamfer distance of the two argument clouds.

  After the grid the host sums each result array over all its indices (from zero), divides each sum by 32768 and adds
  the two quotients. The arrays are the two tables of least squared distances (one as a column, one as a row per batch:
  the extra axis of extent one does not change a sum over all indices).
-/
import proofs.«149026_j76811195121928_2_alg».proof.Proof.Arrays
import Idealize.ShloMosaic.Lib.StableHlo.Run
import Idealize.ShloMosaic.PureOps.Ideal.Laws

noncomputable section

namespace Cert.KernelIdeal.Result

open Cert.KernelIdeal Cert.KernelIdeal.Gen Cert.KernelIdeal.Blocks Cert.KernelIdeal.Arrays Cert.Chamfer
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-- The host's sum of the first result array over all its indices. -/
theorem reduceAll_first (f : S8x4096x1.Idx → EReal) (i : S_.Idx) :
    Host.reduceAdd (F := Ideal) f (constant S_ .f32 0x00000000#32) Facts₀.reducesTo_S8x4096x1_S_d0_1_2 Facts₀.h_S_ i
      = Ideal.ofBits .f32 0x00000000#32 + ∑ j, f j := by
  simp only [Host.reduceAdd, Ideal.hostReduceAdd_def]
  exact Ideal.hostReduceAdd_total Facts₀.reducesTo_S8x4096x1_S_d0_1_2 (fun b => b.elim0) f _ i

/-- The host's sum of the second result array over all its indices. -/
theorem reduceAll_second (f : S8x1x4096.Idx → EReal) (i : S_.Idx) :
    Host.reduceAdd (F := Ideal) f (constant S_ .f32 0x00000000#32) Facts₀.reducesTo_S8x1x4096_S_d0_1_2 Facts₀.h_S_ i
      = Ideal.ofBits .f32 0x00000000#32 + ∑ j, f j := by
  simp only [Host.reduceAdd, Ideal.hostReduceAdd_def]
  exact Ideal.hostReduceAdd_total Facts₀.reducesTo_S8x1x4096_S_d0_1_2 (fun b => b.elim0) f _ i

/-- The number the program ends with, as the contents of its rank-zero result. -/
def value (c : Dev nD) : S_.Idx → EReal := fun _ =>
  chamfer (Ideal.ofBits .f32 0x00000000#32) (Ideal.ofBits .f32 0x47000000#32) (cloud1 m c) (cloud2 m c)

/-- The host lines after the grid, applied to the two result arrays. -/
theorem tail_eq (c : Dev nD) : Pipeline.afterTail₀ cfgs (dats m) 0 (V0 m) [hostOps1] c main_v6 = value m c := by
  unfold Pipeline.afterTail₀
  show StableHlo.after hostOps1 _ (Proc.devRef .tc main_v6) = _
  after_results
  have a2 : Pipeline.withArrays (cfgs 0).spec c (V0 m c) (fun w => (dats m 0 c).arrAt w (cfgs 0).N) (Proc.devRef .tc main_v1_0)
      = firstResult (cloud1 m c) (cloud2 m c) :=
    (Pipeline.withArrays_arr spec0 launch0.win.arr_inj c _ _ 2).trans (final_first m c)
  have a3 : Pipeline.withArrays (cfgs 0).spec c (V0 m c) (fun w => (dats m 0 c).arrAt w (cfgs 0).N) (Proc.devRef .tc main_v1_1)
      = secondResult (cloud1 m c) (cloud2 m c) :=
    (Pipeline.withArrays_arr spec0 launch0.win.arr_inj c _ _ 3).trans (final_second m c)
  rw [a2, a3]
  funext i
  show Ideal.div (Host.reduceAdd (F := Ideal) (firstResult (cloud1 m c) (cloud2 m c)) _ _ _ i) (Ideal.ofBits .f32 0x47000000#32)
      + Ideal.div (Host.reduceAdd (F := Ideal) (secondResult (cloud1 m c) (cloud2 m c)) _ _ _ i) (Ideal.ofBits .f32 0x47000000#32) = _
  rw [reduceAll_first, reduceAll_second, sum_firstResult, sum_secondResult]
  rfl

/-- THE RUN: every weakly fair execution terminates with the result at the chamfer distance of the argument clouds,
    the arguments unchanged. -/
theorem run : θ_run defs (onTc (τ := τ) (main (F := Ideal))) ⟨m, fun _ => 0, ρ⟩ fun r => ∀ c : Dev nD,
      r.2.mem ((c.tc : Thread nD τ).loc main_v6) = value m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Result

end
-- ==== Proof.RefValue.lean ====
/-
  The reference program, read: its one result is the chamfer distance of the two argument clouds.

  The reference forms each entry of the table of squared distances as |a|² + |b|² − 2·a·b — the squared lengths as sums
  of squares over the three coordinates, the inner product as a contraction over them —, takes the least entry of each
  row and of each column (from `+∞`), sums each family of minima from zero, divides by 32768 and adds. On real
  coordinates its table entry is the sum of the three squared coordinate differences.
-/
import proofs.«149026_j76811195121928_2_alg».proof.Proof.Gen.ReferenceIdeal.Read
import proofs.«149026_j76811195121928_2_alg».proof.Proof.Spec
import Idealize.ShloMosaic.PureOps.Reduce

noncomputable section

namespace Cert.ReferenceIdeal.RefValue

open Cert.ReferenceIdeal Cert.ReferenceIdeal.Gen Cert.ReferenceIdeal.Read Cert.Chamfer
open Idealize.ShloMosaic Idealize.ShloMosaic.ValueIdx

/-- The reference's table entry `(b, n, mm)`. -/
theorem table_apply (x0 x1 : Clouds) (b : Fin 8) (n mm : Fin 4096) :
    val_main_v12 (F := Ideal) x0 x1 (ix3 b n mm)
      = sqDistDot (Ideal.ofBits .f32 0x00000000#32) (Ideal.ofBits .f32 0x40000000#32) x0 x1 b n mm := by
  have e1 : ∀ d : Fin 3, idx_main_v1 (idx_main_v5 (idx_main_v7 (ix3 b n mm))) d = ix3 b n d := fun d =>
    funext fun a => Fin.ext (by match a with | ⟨0, _⟩ => rfl | ⟨1, _⟩ => rfl | ⟨2, _⟩ => rfl)
  have e3 : ∀ d : Fin 3, idx_main_v3 (idx_main_v6 (idx_main_v8 (ix3 b n mm))) d = ix3 b mm d := fun d =>
    funext fun a => Fin.ext (by match a with | ⟨0, _⟩ => rfl | ⟨1, _⟩ => rfl | ⟨2, _⟩ => rfl)
  have el : ∀ d : Fin 3, lidx_main_v4 (ix3 b n mm) d = ix3 b n d := fun d =>
    funext fun a => Fin.ext (by match a with | ⟨0, _⟩ => rfl | ⟨1, _⟩ => rfl | ⟨2, _⟩ => rfl)
  have er : ∀ d : Fin 3, ridx_main_v4 (ix3 b n mm) d = ix3 b mm d := fun d =>
    funext fun a => Fin.ext (by match a with | ⟨0, _⟩ => rfl | ⟨1, _⟩ => rfl | ⟨2, _⟩ => rfl)
  rw [val_main_v12_apply, val_main_v9_apply, val_main_v7_apply, val_main_v5_apply, val_main_v1_apply,
    val_main_v8_apply, val_main_v6_apply, val_main_v3_apply, val_main_v11_apply, val_main_v10_apply, val_main_v4_apply]
  simp only [e1, e3, el, er, Fin.sum_univ_three, val_main_v0_apply, val_main_v2_apply, val_main_cst_apply,
    val_main_cst_0_apply, val_main_cst_1_apply, Ideal.subf_def, Ideal.addf_def, Ideal.mulf_def, Ideal.ofBits_def]
  rfl

/-- The least entry of row `(b, n)` of a table, as the host's reduce along the last axis takes it from `+∞`. -/
theorem rowMin_apply (x0 x1 : Clouds) (b : Fin 8) (n : Fin 4096) :
    val_main_v13 (F := Ideal) x0 x1 (ix2 b n) = least fun mm : Fin 4096 => val_main_v12 (F := Ideal) x0 x1 (ix3 b n mm) := by
  unfold val_main_v13
  generalize val_main_v12 (F := Ideal) x0 x1 = Y
  have h : S8x4096x4096.Reduces [2] S8x4096 := by decide
  refine (Host.reduce_eq_fold_single (FloatOps.minimumf (F := Ideal) (φ := .f32)) Y _ Facts₀.reducesTo_S8x4096x4096_S8x4096_d2 h Facts₀.h_S_ (ix2 b n)).trans ?_
  have hf : (Y ∘ h.lift (ix2 b n)) = fun mm : Fin 4096 => Y (ix3 b n mm) :=
    funext fun k => congrArg Y (by funext c; apply Fin.ext; fin_cases c <;> rfl)
  unfold least
  rw [← ofBits_inf]
  exact congrArg (fun f => Finset.fold min (Ideal.ofBits .f32 0x7F800000#32) f (Finset.univ : Finset (Fin 4096))) hf

/-- The least entry of column `(b, mm)`, as the host's reduce along the middle axis takes it from `+∞`. -/
theorem colMin_apply (x0 x1 : Clouds) (b : Fin 8) (mm : Fin 4096) :
    val_main_v14 (F := Ideal) x0 x1 (ix2 b mm) = least fun n : Fin 4096 => val_main_v12 (F := Ideal) x0 x1 (ix3 b n mm) := by
  unfold val_main_v14
  generalize val_main_v12 (F := Ideal) x0 x1 = Y
  have h : S8x4096x4096.Reduces [1] S8x4096 := by decide
  refine (Host.reduce_eq_fold_single (FloatOps.minimumf (F := Ideal) (φ := .f32)) Y _ Facts₀.reducesTo_S8x4096x4096_S8x4096_d1 h Facts₀.h_S_ (ix2 b mm)).trans ?_
  have hf : (Y ∘ h.lift (ix2 b mm)) = fun n : Fin 4096 => Y (ix3 b n mm) :=
    funext fun k => congrArg Y (by funext c; apply Fin.ext; fin_cases c <;> rfl)
  unfold least
  rw [← ofBits_inf]
  exact congrArg (fun f => Finset.fold min (Ideal.ofBits .f32 0x7F800000#32) f (Finset.univ : Finset (Fin 4096))) hf

/-- On real coordinates the reference's entry is the squared distance. -/
theorem entry_eq (x0 x1 : Clouds) (h0 : ∀ i, ∃ r : ℝ, x0 i = (r : EReal)) (h1 : ∀ i, ∃ r : ℝ, x1 i = (r : EReal))
    (b : Fin 8) (n mm : Fin 4096) : val_main_v12 (F := Ideal) x0 x1 (ix3 b n mm) = sqDist x0 x1 b n mm := by
  rw [table_apply, Ideal.ofBits_zero_f32, ofBits_two]
  exact (sqDist_eq_sqDistDot x0 x1 h0 h1 b n mm).symm

/-- So the row minima are the first cloud's least squared distances, -/
theorem first_apply (x0 x1 : Clouds) (h0 : ∀ i, ∃ r : ℝ, x0 i = (r : EReal)) (h1 : ∀ i, ∃ r : ℝ, x1 i = (r : EReal))
    (j : S8x4096.Idx) : val_main_v13 (F := Ideal) x0 x1 j = nearest1 x0 x1 (j 0) (j 1) := by
  obtain ⟨b, n, rfl⟩ : ∃ (b : Fin 8) (n : Fin 4096), j = ix2 b n := ⟨j 0, j 1, eq_ix2 j⟩
  rw [rowMin_apply]
  exact congrArg least (funext fun mm => entry_eq x0 x1 h0 h1 b n mm)

/-- and the column minima the second cloud's. -/
theorem second_apply (x0 x1 : Clouds) (h0 : ∀ i, ∃ r : ℝ, x0 i = (r : EReal)) (h1 : ∀ i, ∃ r : ℝ, x1 i = (r : EReal))
    (j : S8x4096.Idx) : val_main_v14 (F := Ideal) x0 x1 j = nearest2 x0 x1 (j 0) (j 1) := by
  obtain ⟨b, mm, rfl⟩ : ∃ (b : Fin 8) (mm : Fin 4096), j = ix2 b mm := ⟨j 0, j 1, eq_ix2 j⟩
  rw [colMin_apply]
  exact congrArg least (funext fun n => entry_eq x0 x1 h0 h1 b n mm)

/-- THE REFERENCE'S RESULT on real coordinates: the chamfer distance. -/
theorem value_eq (x0 x1 : Clouds) (h0 : ∀ i, ∃ r : ℝ, x0 i = (r : EReal)) (h1 : ∀ i, ∃ r : ℝ, x1 i = (r : EReal)) :
    val_main_v19 (F := Ideal) x0 x1
      = fun _ => chamfer (Ideal.ofBits .f32 0x00000000#32) (Ideal.ofBits .f32 0x47000000#32) x0 x1 := by
  funext i
  rw [val_main_v19_apply, val_main_v16_apply, val_main_v18_apply, val_main_v15_apply, val_main_v17_apply]
  simp only [val_main_cst_4_apply, val_main_cst_5_apply, val_main_cst_6_apply, val_main_cst_7_apply,
    Ideal.addf_def, Ideal.hostDivf_def, Ideal.ofBits_def]
  rw [Finset.sum_congr rfl fun j _ => first_apply x0 x1 h0 h1 j, Finset.sum_congr rfl fun j _ => second_apply x0 x1 h0 h1 j]
  rfl

end Cert.ReferenceIdeal.RefValue

end
-- ==== Proof.Finite.lean ====
/-
  What the precondition gives: every coordinate of both clouds is a real number.

  The precondition says that `|x| < +∞` holds at every entry of both arguments (an `and` over all entries, twice, and the
  `and` of the two). An extended real whose absolute value `max x (−x)` is below `+∞` is neither infinity.
-/
import proofs.«149026_j76811195121928_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic

instance : Subsingleton Cert.Pre_finite_inputs.S_.Idx := ⟨fun _ _ => funext fun d => d.elim0⟩

/-- An extended real whose absolute value compares below `+∞` is a real number. -/
theorem real_of_abs_lt (x : EReal)
    (h : FloatOps.cmpf (F := Ideal) (φ := .f32) .olt (FloatOps.hostAbsf x) (FloatOps.ofBits .f32 0x7F800000#32) = 1#1) :
    ∃ r : ℝ, x = (r : EReal) := by
  induction x using EReal.rec with
  | bot =>
    exfalso; revert h
    simp [Ideal.cmpf_def, Ideal.cmp, Ideal.absf_def, Ideal.ofBits, Ideal.ieee]
  | coe r => exact ⟨r, rfl⟩
  | top =>
    exfalso; revert h
    simp [Ideal.cmpf_def, Ideal.cmp, Ideal.absf_def, Ideal.ofBits, Ideal.ieee]

/-- Under the precondition both arguments hold real numbers only. -/
theorem real_of_pre [Cert.Pre_finite_inputs.Facts] (x1 x2 : FVec Ideal Cert.Pre_finite_inputs.S8x4096x3 .f32)
    (h : Cert.Pre_finite_inputs.fn (F := Ideal) x1 x2 = fun _ => 1#1) :
    (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨ha, hb⟩ := IntOp.andi_eq_one.1 h0
  exact ⟨fun i => real_of_abs_lt _ (Host.reduce_andi_all _ _ _ _ _ ha i),
    fun i => real_of_abs_lt _ (Host.reduce_andi_all _ _ _ _ _ hb i)⟩

end Cert.Finite

end
-- ==== Proof.lean ====
/-
  The chamfer distance of two batches of point clouds, computed two ways, is one extended real.

  The kernel walks an 8 × 8 grid: batch by batch, and within a batch tile by tile over the first cloud's 4096 points,
  512 at a time. At each tile it forms the 512 × 4096 table of squared distances to the whole second cloud as the sum of
  the three squared coordinate differences; the row minima are that tile's part of the first result; the column minima
  are joined by `min` to a running minimum that starts at +∞ with the batch and is copied out, as the second result, at
  the batch's last tile. The host then averages each result and adds the two averages. The reference forms each entry as
  |a|² + |b|² − 2·a·b, minimises over whole rows and whole columns, averages and adds.

  Under the precondition every coordinate is a real number, so the two spellings of an entry agree
  ((a − b)² = a² + b² − 2ab needs no infinities); a minimum taken tile by tile from +∞ is the minimum over all rows; and a
  sum over all indices does not see an axis of extent one. Hence both programs end at the same number.

  The three programs run, terminate and leave their arguments unchanged; the idealisation rewrote nothing.
-/
import proofs.«149026_j76811195121928_2_alg».proof.Defs
import proofs.«149026_j76811195121928_2_alg».proof.Proof.Gen.Kernel
import proofs.«149026_j76811195121928_2_alg».proof.Proof.Gen.Kernel.Frame
import proofs.«149026_j76811195121928_2_alg».proof.Proof.Gen.KernelIdeal
import proofs.«149026_j76811195121928_2_alg».proof.Proof.Gen.KernelIdeal.Frame
import proofs.«149026_j76811195121928_2_alg».proof.Proof.Gen.ReferenceIdeal
import proofs.«149026_j76811195121928_2_alg».proof.Proof.Gen.ReferenceIdeal.Run
import proofs.«149026_j76811195121928_2_alg».proof.Proof.Gen.ReferenceIdeal.Read
import proofs.«149026_j76811195121928_2_alg».proof.Proof.Gen.Pre_finite_inputs
import proofs.«149026_j76811195121928_2_alg».proof.Proof.Result
import proofs.«149026_j76811195121928_2_alg».proof.Proof.RefValue
import proofs.«149026_j76811195121928_2_alg».proof.Proof.Finite
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealisation. -/
theorem frame_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the two clouds, whose coordinates the precondition makes real, both programs end at the
    chamfer distance of those clouds. -/
theorem algebraic : Cert.algebraic_KernelIdeal_ReferenceIdeal := by
  intro m ρ m' ρ' hpre hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h1, h2⟩ := Cert.Finite.real_of_pre _ _ (hpre c)
  rw [(hagree c).1, (hagree c).2, Cert.ReferenceIdeal.Read.val_main_v19_eq, Cert.ReferenceIdeal.RefValue.value_eq _ _ h1 h2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
